-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S128x4096 : Shape := ⟨2, ![128, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S128x4096 : S_.BroadcastsInDim S128x4096 (![] : Fin 0 → Fin S128x4096.rank)
  reducesTo_S128x4096_S_d0_1 : S128x4096.ReducesTo [0, 1] S_

variable [Facts]

def fn {F : FTy → Type} [FloatOps F] (main_arg0 : FVec F S16384x4096 .f32) (main_arg1 : FVec F S128x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  main_v8
-- ==== Kernel.lean ====
abbrev S16384x4096 : Shape := ⟨2, ![16384, 4096]⟩
abbrev S128x4096 : Shape := ⟨2, ![128, 4096]⟩
abbrev S16384x128 : Shape := ⟨2, ![16384, 128]⟩
abbrev S512x128 : Shape := ⟨2, ![512, 128]⟩
abbrev S128x128 : Shape := ⟨2, ![128, 128]⟩

abbrev nBuf : Space → Nat
  | .hbm => 4
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S128x4096, .f32⟩
  | .hbm, ⟨2, _⟩ => ⟨S128x4096, .bf16⟩
  | .hbm, ⟨3, _⟩ => ⟨S16384x128, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S512x128, .f32⟩
  | .local _ .vmem, ⟨10, _⟩ => ⟨S512x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S512x128_S128x128_0_0 : ∀ a, (![0, 0] : Fin 2 → Nat) a + S128x128.size a ≤ S512x128.size a
  h_S128x128 : 0 < S128x128.numel
  inb_S512x128_S128x128_128_0 : ∀ a, (![128, 0] : Fin 2 → Nat) a + S128x128.size a ≤ S512x128.size a
  inb_S512x128_S128x128_256_0 : ∀ a, (![256, 0] : Fin 2 → Nat) a + S128x128.size a ≤ S512x128.size a
  inb_S512x128_S128x128_384_0 : ∀ a, (![384, 0] : Fin 2 → Nat) a + S128x128.size a ≤ S512x128.size a
  dot_S128x4096_S128x4096_S128x128_1_1_0_0_n_n_wf : DotDims.WF S128x4096 S128x4096 S128x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S16384x4096.size a
  hwx0_1 : ∀ i : grid0.Coords, EltTy.bits .f32 = 32 ∨ (Rect.block (s := S16384x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S16384x4096.size a
  hwx0_2 : ∀ i : grid0.Coords, EltTy.bits .f32 = 32 ∨ (Rect.block (s := S16384x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S16384x4096.size a
  hwx0_3 : ∀ i : grid0.Coords, EltTy.bits .f32 = 32 ∨ (Rect.block (s := S16384x4096) S128x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S128x4096.size a
  hwx0_4 : ∀ i : grid0.Coords, EltTy.bits .bf16 = 32 ∨ (Rect.block (s := S128x4096) S128x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S16384x128.size a
  hwx0_5 : ∀ i : grid0.Coords, EltTy.bits .f32 = 32 ∨ (Rect.block (s := S16384x128) S512x128.size (cc0_transform_5 i) (hinb0_5 i)).WholeWords (EltTy.packing .f32)

variable [Facts₀]

def dot_S128x4096_S128x4096_S128x128_1_1_0_0_n_n : DotDims S128x4096 S128x4096 S128x128 where
  lhsContracting := [1]
  rhsContracting := [1]
  lhsNonContracting := [0]
  rhsNonContracting := [0]
  lhsBatch := []
  rhsBatch := []
  wf := dot_S128x4096_S128x4096_S128x128_1_1_0_0_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S128x4096 : Shape := ⟨2, ![128, 4096]⟩
abbrev S4096x128 : Shape := ⟨2, ![4096, 128]⟩
abbrev S16384x128 : Shape := ⟨2, ![16384, 128]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S128x4096, .f32⟩
  | .hbm, ⟨2, _⟩ => ⟨S4096x128, .f32⟩
  | .hbm, ⟨3, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S128x4096_S4096x128_1_0 : S128x4096.Transposes [1, 0] S4096x128
  dot_S16384x4096_S4096x128_S16384x128_1_0_0_1_n_n_wf : DotDims.WF S16384x4096 S4096x128 S16384x128 [1] [0] [0] [1] [] []

variable [Facts₀]

def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.LibFrameShared.lean ====
/-
  The frame run of a one-region pipeline kernel that is handed ONE array through SEVERAL input windows.

  When two input windows stage blocks of the same array, the array's buffer cannot be held once per window at the
  full share. The buffers behind the windows' arrays, each held once at the full share at the region-entry
  contents, are instead dealt among the windows by the certificate (`hsplit`): an array read through two windows
  is held at one half of the full share by each. Everything else is as for a kernel with distinct arrays: the
  kernel names no semaphore, transfer or scratch of its own, so the invariant carried from point to point is the
  scoped rest alone, every unscoped buffer that is no window's array bypasses the region, and the final state has
  each window's array at what the write-backs leave there and every bypassing buffer as the region found it.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run for windows that may share arrays. `hsplit` deals the buffers behind the arrays, each whole at
    the full share at the entry contents `V`, among the windows; the invariant is the scoped rest at every point
    (`hΦ`). The post is `FramePost`: every window's array at `arrAt w N` (windows on one array agree), every other
    unscoped buffer at `V`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => by
      rw [hΦ]
      iintro ⟨-, H⟩
      iexact H)
    (hout := fun c => by
      rw [hΦ]
      iintro H
      isplitr
      · iempintro
      · iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.FrameBits.lean ====
/-
  The frame of the router kernel: logits = hidden_states · Wᵀ over a grid of 32 points.

  The kernel hands the ONE array of hidden states to FOUR input windows: at grid point t, window j (j = 0..3)
  stages the 128-row block 4t + j, the fifth window stages the whole (converted) weight matrix, fetched once, and
  the output window's 512-row block t is written back at every point. The body loads the weight block and each
  of the four row blocks, and stores four 128 × 128 products into the four quarters of the output block; the
  loads it makes of the output block read values it never uses.

  What is proved here, at any float instance: every weakly fair execution of @main terminates without a fault;
  the argument arrays end as they began; and the result array ends at what the write-backs of the 32 points
  leave there, each point writing the four products of its four row blocks with the weight block
  (the last store first: `out`).

  Because four windows read one array, that array is held by each of them at a quarter of the full share.
-/
import proofs.«171521_g59691455480109_cont_9to1_m_17_11_alg».proof.Proof.Gen.Kernel.Launch
import proofs.«171521_g59691455480109_cont_9to1_m_17_11_alg».proof.Proof.Gen.Kernel.Skeleton
import proofs.«171521_g59691455480109_cont_9to1_m_17_11_alg».proof.Proof.Gen.Kernel.Points
import proofs.«171521_g59691455480109_cont_9to1_m_17_11_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers when the region is entered: the launch contents after the one host operation (the
    weights' change of format). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes neither argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, when the body
    leaves the block in place: an unfetched window's block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses -/

/-- The whole 128 × 4096 block: what every load of an input window reads. -/
abbrev rIn : Rect S128x4096 := Rect.unit (s := S128x4096) ![0, 0] S128x4096.size inb_S128x4096_S128x4096_0_0
/-- The four quarters of the 512 × 128 output block, rows 0–127, 128–255, 256–383, 384–511. -/
abbrev rQ0 : Rect S512x128 := Rect.unit (s := S512x128) ![0, 0] S128x128.size inb_S512x128_S128x128_0_0
abbrev rQ1 : Rect S512x128 := Rect.unit (s := S512x128) ![128, 0] S128x128.size inb_S512x128_S128x128_128_0
abbrev rQ2 : Rect S512x128 := Rect.unit (s := S512x128) ![256, 0] S128x128.size inb_S512x128_S128x128_256_0
abbrev rQ3 : Rect S512x128 := Rect.unit (s := S512x128) ![384, 0] S128x128.size inb_S512x128_S128x128_384_0

/-! ## What the body leaves in the output window's buffer -/

/-- The output block after the body, from the four row blocks `x0 … x3` and the weight block `xw`: quarter `j` is
    the product of row block `j` with the weight block (the last store first). -/
def out (x0 x1 x2 x3 : Vec F S128x4096 .f32) (xw : Vec F S128x4096 .bf16) : Vec F S512x128 .f32 :=
  View.canon [⟨rQ3, k0_pay5 (View.ld xw rIn) (View.ld x3 rIn)⟩, ⟨rQ2, k0_pay4 (View.ld xw rIn) (View.ld x2 rIn)⟩,
    ⟨rQ1, k0_pay3 (View.ld xw rIn) (View.ld x1 rIn)⟩, ⟨rQ0, k0_pay2 (View.ld xw rIn) (View.ld x0 rIn)⟩]

/-- The four quarters tile the output block. -/
theorem cover_out (p0 p1 p2 p3 : Vec F S128x128 .f32) (y : S512x128.Idx) :
    ∃ pc ∈ ([⟨rQ3, p3⟩, ⟨rQ2, p2⟩, ⟨rQ1, p1⟩, ⟨rQ0, p0⟩] : List (View.Piece (Elt F) S512x128 .f32)), y ∈ pc.1.set :=
  View.cover_of_tiled [⟨rQ3, p3⟩, ⟨rQ2, p2⟩, ⟨rQ1, p1⟩, ⟨rQ0, p0⟩] S128x128.size (by rfl) y

/-! ## The body's triple -/

set_option maxHeartbeats 1000000 in
/-- The body on whole staging memrefs, the inputs' at read contents `x0 … x3`, `xw` and the output's at anything,
    runs to the continuation holding the inputs' as they were and the output's at `out` of them. -/
theorem sound_kernel (c : Dev nD) (E : Set ℕ) (i : grid0.Coords)
    (arg1 : Memref sig .tc .vmem S128x4096 .f32) (harg1 : arg1.IsWhole) (arg2 : Memref sig .tc .vmem S128x4096 .f32) (harg2 : arg2.IsWhole)
    (arg3 : Memref sig .tc .vmem S128x4096 .f32) (harg3 : arg3.IsWhole) (arg4 : Memref sig .tc .vmem S128x4096 .f32) (harg4 : arg4.IsWhole)
    (arg5 : Memref sig .tc .vmem S128x4096 .bf16) (harg5 : arg5.IsWhole) (arg6 : Memref sig .tc .vmem S512x128 .f32) (harg6 : arg6.IsWhole)
    (x0 x1 x2 x3 : Vec F S128x4096 .f32) (xw : Vec F S128x4096 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xw ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xw
            ∗ owns (c : Thread nD τ) arg6 fullShare (out x0 x1 x2 x3 xw)) -∗ K ⟨⟩))
      ⊢ wp frame (wpE (defs₀ (F := F)) Variants.none c none) E (cc0__router_kernel i arg1 harg1 arg2 harg2 arg3 harg3 arg4 harg4 arg5 harg5 arg6 harg6) K := by
  simp only [cc0__router_kernel_eq_skeleton]; unfold cc0__router_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _ _ _)

end Cert.Kernel.Frm

end
-- ==== Proof.RunBits.lean ====
/-
  The run of the router kernel's region: the proof data of its one pipeline, the body obligation at every grid
  point, the dealing of the array of hidden states among the four windows that read it, and the frame run.
-/
import proofs.«171521_g59691455480109_cont_9to1_m_17_11_alg».proof.Proof.FrameBits

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: the arrays as the region finds them; after the body at point `t` each input's buffer
    at its block and the output's at `out` of the five input blocks; the invariant the scoped rest (the kernel has no
    scratch); nothing owed; the array of hidden states held at a quarter of the full share by each of the four windows
    that read it, the weights and the result whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The array of hidden states dealt among its four windows -/

/-- The three buffers behind the six windows' arrays, each whole at the full share at the entry contents, are the
    pipeline's arrays at entry: the hidden states' buffer halved twice, a quarter to each window that reads it. -/
theorem arr0 (c : Dev nD) :
    (View.loc (c.tc : Thread nD τ) (cfg0.win 0).arr.view ↦[(cfg0.win 0).arr.view.set]{(dats m 0 c).share 0} (dats m 0 c).arrAt 0 0 : sProp 𝕄)
      = (((c.tc : Thread nD τ).loc main_arg0) ↦{fullShare.left.left} V m c main_arg0) := by
  rw [(arr_whole0 0).set_eq_univ]; rfl
theorem arr1 (c : Dev nD) :
    (View.loc (c.tc : Thread nD τ) (cfg0.win 1).arr.view ↦[(cfg0.win 1).arr.view.set]{(dats m 0 c).share 1} (dats m 0 c).arrAt 1 0 : sProp 𝕄)
      = (((c.tc : Thread nD τ).loc main_arg0) ↦{fullShare.left.right} V m c main_arg0) := by
  rw [(arr_whole0 1).set_eq_univ]; rfl
theorem arr2 (c : Dev nD) :
    (View.loc (c.tc : Thread nD τ) (cfg0.win 2).arr.view ↦[(cfg0.win 2).arr.view.set]{(dats m 0 c).share 2} (dats m 0 c).arrAt 2 0 : sProp 𝕄)
      = (((c.tc : Thread nD τ).loc main_arg0) ↦{fullShare.right.left} V m c main_arg0) := by
  rw [(arr_whole0 2).set_eq_univ]; rfl
theorem arr3 (c : Dev nD) :
    (View.loc (c.tc : Thread nD τ) (cfg0.win 3).arr.view ↦[(cfg0.win 3).arr.view.set]{(dats m 0 c).share 3} (dats m 0 c).arrAt 3 0 : sProp 𝕄)
      = (((c.tc : Thread nD τ).loc main_arg0) ↦{fullShare.right.right} V m c main_arg0) := by
  rw [(arr_whole0 3).set_eq_univ]; rfl
theorem arr4 (c : Dev nD) :
    (View.loc (c.tc : Thread nD τ) (cfg0.win 4).arr.view ↦[(cfg0.win 4).arr.view.set]{(dats m 0 c).share 4} (dats m 0 c).arrAt 4 0 : sProp 𝕄)
      = (((c.tc : Thread nD τ).loc main_v0) ↦{fullShare} V m c main_v0) := by
  rw [(arr_whole0 4).set_eq_univ]; rfl
theorem arr5 (c : Dev nD) :
    (View.loc (c.tc : Thread nD τ) (cfg0.win 5).arr.view ↦[(cfg0.win 5).arr.view.set]{(dats m 0 c).share 5} (dats m 0 c).arrAt 5 0 : sProp 𝕄)
      = (((c.tc : Thread nD τ).loc main_v1) ↦{fullShare} V m c main_v1) := by
  rw [(arr_whole0 5).set_eq_univ]; rfl

theorem hsplit (c : Dev nD) :
    (Pipeline.arrBufs (cfgs 0).spec c (V m c) : sProp 𝕄) ⊢ (dats m 0 c).arrays ((dats m 0 c).arrAt · 0) := by
  unfold Pipeline.arrBufs Dat.arrays
  rw [bigSep_eq_bigSepL_of_eq [main_arg0, main_v0, main_v1] (by decide) (by decide), bigSep_W0]
  beta_reduce
  rw [arr0, arr1, arr2, arr3, arr4, arr5]
  show iprop((((c.tc : Thread nD τ).loc main_arg0) ↦{fullShare} V m c main_arg0) ∗ (((c.tc : Thread nD τ).loc main_v0) ↦{fullShare} V m c main_v0)
      ∗ (((c.tc : Thread nD τ).loc main_v1) ↦{fullShare} V m c main_v1)) ⊢ _
  iintro ⟨H0, H4, H5⟩
  ihave H0 := (pointsTo_share (PosShare.mem_left_op_right fullShare)).1 $$ H0
  icases H0 with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  isplitl [HLL]; · iexact HLL
  isplitl [HLR]; · iexact HLR
  isplitl [HRL]; · iexact HRL
  isplitl [HRR]; · iexact HRR
  isplitl [H4]; · iexact H4
  iexact H5

/-! ## The run and the frame -/

set_option backward.isDefEq.respectTransparency.types false in
/-- Every weakly fair execution of @main terminates, and every final state has each window's array at what the
    write-backs leave there and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frm

end
-- ==== Proof.FrameIdeal.lean ====
/-
  The frame of the router kernel: logits = hidden_states · Wᵀ over a grid of 32 points.

  The kernel hands the ONE array of hidden states to FOUR input windows: at grid point t, window j (j = 0..3)
  stages the 128-row block 4t + j, the fifth window stages the whole (converted) weight matrix, fetched once, and
  the output window's 512-row block t is written back at every point. The body loads the weight block and each
  of the four row blocks, and stores four 128 × 128 products into the four quarters of the output block; the
  loads it makes of the output block read values it never uses.

  What is proved here, at any float instance: every weakly fair execution of @main terminates without a fault;
  the argument arrays end as they began; and the result array ends at what the write-backs of the 32 points
  leave there, each point writing the four products of its four row blocks with the weight block
  (the last store first: `out`).

  Because four windows read one array, that array is held by each of them at a quarter of the full share.
-/
import proofs.«171521_g59691455480109_cont_9to1_m_17_11_alg».proof.Proof.Gen.KernelIdeal.Launch
import proofs.«171521_g59691455480109_cont_9to1_m_17_11_alg».proof.Proof.Gen.KernelIdeal.Skeleton
import proofs.«171521_g59691455480109_cont_9to1_m_17_11_alg».proof.Proof.Gen.KernelIdeal.Points
import proofs.«171521_g59691455480109_cont_9to1_m_17_11_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers when the region is entered: the launch contents after the one host operation (the
    weights' change of format). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes neither argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, when the body
    leaves the block in place: an unfetched window's block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses -/

/-- The whole 128 × 4096 block: what every load of an input window reads. -/
abbrev rIn : Rect S128x4096 := Rect.unit (s := S128x4096) ![0, 0] S128x4096.size inb_S128x4096_S128x4096_0_0
/-- The four quarters of the 512 × 128 output block, rows 0–127, 128–255, 256–383, 384–511. -/
abbrev rQ0 : Rect S512x128 := Rect.unit (s := S512x128) ![0, 0] S128x128.size inb_S512x128_S128x128_0_0
abbrev rQ1 : Rect S512x128 := Rect.unit (s := S512x128) ![128, 0] S128x128.size inb_S512x128_S128x128_128_0
abbrev rQ2 : Rect S512x128 := Rect.unit (s := S512x128) ![256, 0] S128x128.size inb_S512x128_S128x128_256_0
abbrev rQ3 : Rect S512x128 := Rect.unit (s := S512x128) ![384, 0] S128x128.size inb_S512x128_S128x128_384_0

/-! ## What the body leaves in the output window's buffer -/

/-- The output block after the body, from the four row blocks `x0 … x3` and the weight block `xw`: quarter `j` is
    the product of row block `j` with the weight block (the last store first). -/
def out (x0 x1 x2 x3 : Vec F S128x4096 .f32) (xw : Vec F S128x4096 .bf16) : Vec F S512x128 .f32 :=
  View.canon [⟨rQ3, k0_pay5 (View.ld xw rIn) (View.ld x3 rIn)⟩, ⟨rQ2, k0_pay4 (View.ld xw rIn) (View.ld x2 rIn)⟩,
    ⟨rQ1, k0_pay3 (View.ld xw rIn) (View.ld x1 rIn)⟩, ⟨rQ0, k0_pay2 (View.ld xw rIn) (View.ld x0 rIn)⟩]

/-- The four quarters tile the output block. -/
theorem cover_out (p0 p1 p2 p3 : Vec F S128x128 .f32) (y : S512x128.Idx) :
    ∃ pc ∈ ([⟨rQ3, p3⟩, ⟨rQ2, p2⟩, ⟨rQ1, p1⟩, ⟨rQ0, p0⟩] : List (View.Piece (Elt F) S512x128 .f32)), y ∈ pc.1.set :=
  View.cover_of_tiled [⟨rQ3, p3⟩, ⟨rQ2, p2⟩, ⟨rQ1, p1⟩, ⟨rQ0, p0⟩] S128x128.size (by rfl) y

/-! ## The body's triple -/

set_option maxHeartbeats 1000000 in
/-- The body on whole staging memrefs, the inputs' at read contents `x0 … x3`, `xw` and the output's at anything,
    runs to the continuation holding the inputs' as they were and the output's at `out` of them. -/
theorem sound_kernel (c : Dev nD) (E : Set ℕ) (i : grid0.Coords)
    (arg1 : Memref sig .tc .vmem S128x4096 .f32) (harg1 : arg1.IsWhole) (arg2 : Memref sig .tc .vmem S128x4096 .f32) (harg2 : arg2.IsWhole)
    (arg3 : Memref sig .tc .vmem S128x4096 .f32) (harg3 : arg3.IsWhole) (arg4 : Memref sig .tc .vmem S128x4096 .f32) (harg4 : arg4.IsWhole)
    (arg5 : Memref sig .tc .vmem S128x4096 .bf16) (harg5 : arg5.IsWhole) (arg6 : Memref sig .tc .vmem S512x128 .f32) (harg6 : arg6.IsWhole)
    (x0 x1 x2 x3 : Vec F S128x4096 .f32) (xw : Vec F S128x4096 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xw ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xw
            ∗ owns (c : Thread nD τ) arg6 fullShare (out x0 x1 x2 x3 xw)) -∗ K ⟨⟩))
      ⊢ wp frame (wpE (defs₀ (F := F)) Variants.none c none) E (cc0__router_kernel i arg1 harg1 arg2 harg2 arg3 harg3 arg4 harg4 arg5 harg5 arg6 harg6) K := by
  simp only [cc0__router_kernel_eq_skeleton]; unfold cc0__router_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _ _ _)

end Cert.KernelIdeal.Frm

end
-- ==== Proof.RunIdeal.lean ====
/-
  The run of the router kernel's region: the proof data of its one pipeline, the body obligation at every grid
  point, the dealing of the array of hidden states among the four windows that read it, and the frame run.
-/
import proofs.«171521_g59691455480109_cont_9to1_m_17_11_alg».proof.Proof.FrameIdeal

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: the arrays as the region finds them; after the body at point `t` each input's buffer
    at its block and the output's at `out` of the five input blocks; the invariant the scoped rest (the kernel has no
    scratch); nothing owed; the array of hidden states held at a quarter of the full share by each of the four windows
    that read it, the weights and the result whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The array of hidden states dealt among its four windows -/

/-- The three buffers behind the six windows' arrays, each whole at the full share at the entry contents, are the
    pipeline's arrays at entry: the hidden states' buffer halved twice, a quarter to each window that reads it. -/
theorem arr0 (c : Dev nD) :
    (View.loc (c.tc : Thread nD τ) (cfg0.win 0).arr.view ↦[(cfg0.win 0).arr.view.set]{(dats m 0 c).share 0} (dats m 0 c).arrAt 0 0 : sProp 𝕄)
      = (((c.tc : Thread nD τ).loc main_arg0) ↦{fullShare.left.left} V m c main_arg0) := by
  rw [(arr_whole0 0).set_eq_univ]; rfl
theorem arr1 (c : Dev nD) :
    (View.loc (c.tc : Thread nD τ) (cfg0.win 1).arr.view ↦[(cfg0.win 1).arr.view.set]{(dats m 0 c).share 1} (dats m 0 c).arrAt 1 0 : sProp 𝕄)
      = (((c.tc : Thread nD τ).loc main_arg0) ↦{fullShare.left.right} V m c main_arg0) := by
  rw [(arr_whole0 1).set_eq_univ]; rfl
theorem arr2 (c : Dev nD) :
    (View.loc (c.tc : Thread nD τ) (cfg0.win 2).arr.view ↦[(cfg0.win 2).arr.view.set]{(dats m 0 c).share 2} (dats m 0 c).arrAt 2 0 : sProp 𝕄)
      = (((c.tc : Thread nD τ).loc main_arg0) ↦{fullShare.right.left} V m c main_arg0) := by
  rw [(arr_whole0 2).set_eq_univ]; rfl
theorem arr3 (c : Dev nD) :
    (View.loc (c.tc : Thread nD τ) (cfg0.win 3).arr.view ↦[(cfg0.win 3).arr.view.set]{(dats m 0 c).share 3} (dats m 0 c).arrAt 3 0 : sProp 𝕄)
      = (((c.tc : Thread nD τ).loc main_arg0) ↦{fullShare.right.right} V m c main_arg0) := by
  rw [(arr_whole0 3).set_eq_univ]; rfl
theorem arr4 (c : Dev nD) :
    (View.loc (c.tc : Thread nD τ) (cfg0.win 4).arr.view ↦[(cfg0.win 4).arr.view.set]{(dats m 0 c).share 4} (dats m 0 c).arrAt 4 0 : sProp 𝕄)
      = (((c.tc : Thread nD τ).loc main_v0) ↦{fullShare} V m c main_v0) := by
  rw [(arr_whole0 4).set_eq_univ]; rfl
theorem arr5 (c : Dev nD) :
    (View.loc (c.tc : Thread nD τ) (cfg0.win 5).arr.view ↦[(cfg0.win 5).arr.view.set]{(dats m 0 c).share 5} (dats m 0 c).arrAt 5 0 : sProp 𝕄)
      = (((c.tc : Thread nD τ).loc main_v1) ↦{fullShare} V m c main_v1) := by
  rw [(arr_whole0 5).set_eq_univ]; rfl

theorem hsplit (c : Dev nD) :
    (Pipeline.arrBufs (cfgs 0).spec c (V m c) : sProp 𝕄) ⊢ (dats m 0 c).arrays ((dats m 0 c).arrAt · 0) := by
  unfold Pipeline.arrBufs Dat.arrays
  rw [bigSep_eq_bigSepL_of_eq [main_arg0, main_v0, main_v1] (by decide) (by decide), bigSep_W0]
  beta_reduce
  rw [arr0, arr1, arr2, arr3, arr4, arr5]
  show iprop((((c.tc : Thread nD τ).loc main_arg0) ↦{fullShare} V m c main_arg0) ∗ (((c.tc : Thread nD τ).loc main_v0) ↦{fullShare} V m c main_v0)
      ∗ (((c.tc : Thread nD τ).loc main_v1) ↦{fullShare} V m c main_v1)) ⊢ _
  iintro ⟨H0, H4, H5⟩
  ihave H0 := (pointsTo_share (PosShare.mem_left_op_right fullShare)).1 $$ H0
  icases H0 with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  isplitl [HLL]; · iexact HLL
  isplitl [HLR]; · iexact HLR
  isplitl [HRL]; · iexact HRL
  isplitl [HRR]; · iexact HRR
  isplitl [H4]; · iexact H4
  iexact H5

/-! ## The run and the frame -/

set_option backward.isDefEq.respectTransparency.types false in
/-- Every weakly fair execution of @main terminates, and every final state has each window's array at what the
    write-backs leave there and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frm

end
-- ==== Proof.RefValue.lean ====
/-
  The reference's result read at an index: the host transposes the weights and contracts the hidden states' second
  axis with the transposed weights' first, so entry (i, n) is Σ_k hidden(i, k) · weights(n, k).
-/
import proofs.«171521_g59691455480109_cont_9to1_m_17_11_alg».proof.Proof.Gen.ReferenceIdeal.Read
import Idealize.ShloMosaic.Lib.ValueIdx
import Idealize.ShloMosaic.PureOps.Ideal.Laws

noncomputable section

namespace Cert.Spec

open Idealize.ShloMosaic Idealize.ShloMosaic.ValueIdx

/-- The router logits as one function of the two argument arrays: entry (i, n) is the sum over k of
    hidden(i, k) · weights(n, k), on the extended reals. -/
def logits (a : (⟨2, ![16384, 4096]⟩ : Shape).Idx → EReal) (w : (⟨2, ![128, 4096]⟩ : Shape).Idx → EReal) :
    (⟨2, ![16384, 128]⟩ : Shape).Idx → EReal :=
  fun i => ∑ k : Fin 4096, a (ix2 (n0 := 16384) (i 0) k) * w (ix2 (n0 := 128) (i 1) k)

end Cert.Spec

namespace Cert.ReferenceIdeal.RefValue

open Cert.ReferenceIdeal Cert.ReferenceIdeal.Read Idealize.ShloMosaic Idealize.ShloMosaic.ValueIdx

/-- The reference's last stage is `logits` of the argument arrays. -/
theorem ref_eq (x0 : (⟨S16384x4096, .f32⟩ : BufTy).Contents (Elt Ideal)) (x1 : (⟨S128x4096, .f32⟩ : BufTy).Contents (Elt Ideal)) :
    val_main_v1 (F := Ideal) x0 x1 = Cert.Spec.logits x0 x1 := by
  funext i
  rw [val_main_v1_apply]
  unfold Cert.Spec.logits
  refine Finset.sum_congr rfl fun k _ => ?_
  rw [val_main_v0_apply]
  have e0 : lidx_main_v1 i k = ix2 (n0 := 16384) (i 0) k := funext fun a => by
    match a with
    | ⟨0, _⟩ => rfl
    | ⟨1, _⟩ => rfl
  have e1 : idx_main_v0 (ridx_main_v1 i k) = ix2 (n0 := 128) (i 1) k := funext fun a => by
    match a with
    | ⟨0, _⟩ => rfl
    | ⟨1, _⟩ => rfl
  rw [e0, e1]

end Cert.ReferenceIdeal.RefValue

end
-- ==== Proof.KPay.lean ====
/-
  The body's four products read at an index. At the ideal instance a change of float format is the identity, a
  shape cast to the same shape is the identity, and the matrix unit's product into a zero accumulator, contracting
  the second axis of both operands, is the plain sum: entry (p, n) of a quarter of the output block is
  Σ_k rows(p, k) · weights(n, k).
-/
import proofs.«171521_g59691455480109_cont_9to1_m_17_11_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.KPay

open Cert.KernelIdeal Cert.KernelIdeal.Gen Idealize.ShloMosaic Idealize.ShloMosaic.ValueIdx
open Cert.KernelIdeal.Facts₀

theorem lhs_row (j : S128x128.Idx) (q : dot_S128x4096_S128x4096_S128x128_1_1_0_0_n_n.contr.Idx) :
    (dot_S128x4096_S128x4096_S128x128_1_1_0_0_n_n.lhsIdx j q 0).val = (j 0).val := by
  unfold DotDims.lhsIdx
  rw [dif_neg (show ¬(0 : Fin S128x4096.rank) ∈ dot_S128x4096_S128x4096_S128x128_1_1_0_0_n_n.lhsBatch by decide), dif_pos (show (0 : Fin S128x4096.rank) ∈ dot_S128x4096_S128x4096_S128x128_1_1_0_0_n_n.lhsNonContracting by decide)]
  rfl
theorem lhs_k (j : S128x128.Idx) (q : dot_S128x4096_S128x4096_S128x128_1_1_0_0_n_n.contr.Idx) :
    (dot_S128x4096_S128x4096_S128x128_1_1_0_0_n_n.lhsIdx j q 1).val = (q ⟨0, by decide⟩).val :=
  dot_S128x4096_S128x4096_S128x128_1_1_0_0_n_n.lhsIdx_val_of_single rfl j q
theorem rhs_row (j : S128x128.Idx) (q : dot_S128x4096_S128x4096_S128x128_1_1_0_0_n_n.contr.Idx) :
    (dot_S128x4096_S128x4096_S128x128_1_1_0_0_n_n.rhsIdx j q 0).val = (j 1).val := by
  unfold DotDims.rhsIdx
  rw [dif_neg (show ¬(0 : Fin S128x4096.rank) ∈ dot_S128x4096_S128x4096_S128x128_1_1_0_0_n_n.rhsBatch by decide), dif_pos (show (0 : Fin S128x4096.rank) ∈ dot_S128x4096_S128x4096_S128x128_1_1_0_0_n_n.rhsNonContracting by decide)]
  rfl
theorem rhs_k (j : S128x128.Idx) (q : dot_S128x4096_S128x4096_S128x128_1_1_0_0_n_n.contr.Idx) :
    (dot_S128x4096_S128x4096_S128x128_1_1_0_0_n_n.rhsIdx j q 1).val = (q ⟨0, by decide⟩).val :=
  dot_S128x4096_S128x4096_S128x128_1_1_0_0_n_n.rhsIdx_val_of_single rfl j q

/-- The product of a 128 × 4096 block of rows with the 128 × 4096 weight block, both contracted along their second
    axis, into a zero accumulator: entry (p, n) is Σ_k rows(p, k) · weights(n, k). -/
theorem mm_apply (xr : FVec Ideal S128x4096 .bf16) (xw : FVec Ideal S128x4096 .bf16) (p n : Fin 128) :
    matmul dot_S128x4096_S128x4096_S128x128_1_1_0_0_n_n none xr xw (constant (F := Ideal) S128x128 .f32 0x00000000#32) (ix2 p n)
      = ∑ k : Fin 4096, xr (ix2 p k) * xw (ix2 n k) := by
  refine (Ideal.matmul_constant_zero_apply dot_S128x4096_S128x4096_S128x128_1_1_0_0_n_n none xr xw (ix2 p n)).trans ?_
  rw [← Equiv.sum_comp (ValueIdx.contrEquiv1 dot_S128x4096_S128x4096_S128x128_1_1_0_0_n_n 4096 rfl rfl).symm]
  refine Finset.sum_congr rfl fun k _ => ?_
  have hk := ValueIdx.contrEquiv1_symm_val dot_S128x4096_S128x4096_S128x128_1_1_0_0_n_n 4096 rfl rfl k
  have el : dot_S128x4096_S128x4096_S128x128_1_1_0_0_n_n.lhsIdx (ix2 p n) ((ValueIdx.contrEquiv1 dot_S128x4096_S128x4096_S128x128_1_1_0_0_n_n 4096 rfl rfl).symm k) = ix2 p k := funext fun a => Fin.ext (by
    match a with
    | ⟨0, _⟩ => exact lhs_row _ _
    | ⟨1, _⟩ => exact (lhs_k _ _).trans hk)
  have er : dot_S128x4096_S128x4096_S128x128_1_1_0_0_n_n.rhsIdx (ix2 p n) ((ValueIdx.contrEquiv1 dot_S128x4096_S128x4096_S128x128_1_1_0_0_n_n 4096 rfl rfl).symm k) = ix2 n k := funext fun a => Fin.ext (by
    match a with
    | ⟨0, _⟩ => exact rhs_row _ _
    | ⟨1, _⟩ => exact (rhs_k _ _).trans hk)
  rw [el, er]

/-- Each of the body's four payloads is that product of its row block with the weight block. -/
theorem pay2_apply (xw : Vec Ideal S128x4096 .bf16) (xr : Vec Ideal S128x4096 .f32) (p n : Fin 128) :
    k0_pay2 (F := Ideal) xw xr (ix2 p n) = ∑ k : Fin 4096, xr (ix2 p k) * xw (ix2 n k) := by
  unfold k0_pay2 k0_pay1
  rw [shapeCast_self]
  exact mm_apply _ xw p n
theorem pay3_apply (xw : Vec Ideal S128x4096 .bf16) (xr : Vec Ideal S128x4096 .f32) (p n : Fin 128) :
    k0_pay3 (F := Ideal) xw xr (ix2 p n) = ∑ k : Fin 4096, xr (ix2 p k) * xw (ix2 n k) := by
  unfold k0_pay3 k0_pay1
  rw [shapeCast_self]
  exact mm_apply _ xw p n
theorem pay4_apply (xw : Vec Ideal S128x4096 .bf16) (xr : Vec Ideal S128x4096 .f32) (p n : Fin 128) :
    k0_pay4 (F := Ideal) xw xr (ix2 p n) = ∑ k : Fin 4096, xr (ix2 p k) * xw (ix2 n k) := by
  unfold k0_pay4 k0_pay1
  rw [shapeCast_self]
  exact mm_apply _ xw p n
theorem pay5_apply (xw : Vec Ideal S128x4096 .bf16) (xr : Vec Ideal S128x4096 .f32) (p n : Fin 128) :
    k0_pay5 (F := Ideal) xw xr (ix2 p n) = ∑ k : Fin 4096, xr (ix2 p k) * xw (ix2 n k) := by
  unfold k0_pay5 k0_pay1
  rw [shapeCast_self]
  exact mm_apply _ xw p n

end Cert.KernelIdeal.KPay

end
-- ==== Proof.KValue.lean ====
/-
  The value of the router kernel at the ideal instance: after the run the result array holds, at (i, n),
  Σ_k hidden(i, k) · weights(n, k).

  Grid point t writes back rows 512 t … 512 t + 511 of the result. Quarter q of that block (rows 128 q … 128 q + 127
  of the block) is the product of the weight block with the row block 4 t + q of the hidden states, whose row p is row
  (4 t + q) · 128 + p = 512 t + 128 q + p of the array: exactly the row of the result that entry lands in. The weight
  block is the whole array of weights after the host's change of format, which at the ideal instance is the identity.
  The 32 blocks tile the result array (row i lies in block i / 512), so the array ends at that one function.
-/
import proofs.«171521_g59691455480109_cont_9to1_m_17_11_alg».proof.Proof.RunIdeal
import proofs.«171521_g59691455480109_cont_9to1_m_17_11_alg».proof.Proof.KPay
import proofs.«171521_g59691455480109_cont_9to1_m_17_11_alg».proof.Proof.RefValue
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.Frm Cert.KernelIdeal.KPay Cert.Spec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The weight array as the region finds it: the launch contents after the change of format. -/
theorem V_main_v0 (c : Dev nD) :
    (V m c main_v0 : S128x4096.Idx → EReal) = (m ((c : Thread nD τ).loc main_arg1) : S128x4096.Idx → EReal) := by
  dsimp only [V, hostOps0]; after_results; rfl

/-- The printed index maps over the grid: input window q stages row block 4 t + q, the weight window block 0, the
    output window block t. -/
theorem idx_facts : ∀ t : Fin cfg0.N,
    win0_0.index t (0 : Fin 2) = 4 * win0_5.index t (0 : Fin 2) + 0 ∧ win0_0.index t (1 : Fin 2) = 0
    ∧ win0_1.index t (0 : Fin 2) = 4 * win0_5.index t (0 : Fin 2) + 1 ∧ win0_1.index t (1 : Fin 2) = 0
    ∧ win0_2.index t (0 : Fin 2) = 4 * win0_5.index t (0 : Fin 2) + 2 ∧ win0_2.index t (1 : Fin 2) = 0
    ∧ win0_3.index t (0 : Fin 2) = 4 * win0_5.index t (0 : Fin 2) + 3 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `logits` of the arrays as the region finds them: each quarter's payload,
    read at an index, is the sum that `logits` is at the array index the entry lands on. -/
theorem flushed_eq (c : Dev nD) (t : Fin cfg0.N) :
    (dats m 0 c).flushed 5 t = ((cfg0.win 5).blk t).view.read (Elt Ideal) (logits (V m c main_arg0) (V m c main_v0)) := by
  show (cfg0.win 5).cut (grid0.coords t) ((dats m 0 c).after 5 t) = _
  rw [after5]
  unfold out
  obtain ⟨a0, a0', a1, a1', a2, a2', a3, a3', a4, a4', a5, a5'⟩ := idx_facts t
  funext j
  refine View.canon_apply_of_pieces (Val := Elt Ideal) (fun j => (logits (V m c main_arg0) (V m c main_v0) (((cfg0.win 5).blk t).view.emb j) : Elt Ideal .f32)) _ ?_ j (cover_out _ _ _ _ j)
  intro pc hpc x
  simp only [List.mem_cons, List.mem_singleton, List.not_mem_nil, or_false] at hpc
  rcases hpc with rfl | rfl | rfl | rfl
  · obtain ⟨p, n, rfl⟩ : ∃ (p : Fin 128) (n : Fin 128), x = ix2 p n := ⟨x 0, x 1, eq_ix2 x⟩
    refine (pay5_apply _ _ p n).trans ?_
    unfold logits
    refine Finset.sum_congr rfl fun k _ => ?_
    refine congrArg₂ (· * ·) ?_ ?_
    · show V m c main_arg0 (((cfg0.win 3).blk t).view.emb (rIn.emb (ix2 p k))) = V m c main_arg0 _
      refine congrArg _ (funext fun a => Fin.ext ?_)
      match a with
      | ⟨0, _⟩ => show win0_3.index t (0 : Fin 2) * 128 + 1 * (0 + 1 * p.val) = win0_5.index t (0 : Fin 2) * 512 + 1 * (384 + 1 * p.val); omega
      | ⟨1, _⟩ => show win0_3.index t (1 : Fin 2) * 4096 + 1 * (0 + 1 * k.val) = k.val; omega
    · show V m c main_v0 (((cfg0.win 4).blk t).view.emb (rIn.emb (ix2 n k))) = V m c main_v0 _
      refine congrArg _ (funext fun a => Fin.ext ?_)
      match a with
      | ⟨0, _⟩ => show win0_4.index t (0 : Fin 2) * 128 + 1 * (0 + 1 * n.val) = win0_5.index t (1 : Fin 2) * 128 + 1 * (0 + 1 * n.val); omega
      | ⟨1, _⟩ => show win0_4.index t (1 : Fin 2) * 4096 + 1 * (0 + 1 * k.val) = k.val; omega
  · obtain ⟨p, n, rfl⟩ : ∃ (p : Fin 128) (n : Fin 128), x = ix2 p n := ⟨x 0, x 1, eq_ix2 x⟩
    refine (pay4_apply _ _ p n).trans ?_
    unfold logits
    refine Finset.sum_congr rfl fun k _ => ?_
    refine congrArg₂ (· * ·) ?_ ?_
    · show V m c main_arg0 (((cfg0.win 2).blk t).view.emb (rIn.emb (ix2 p k))) = V m c main_arg0 _
      refine congrArg _ (funext fun a => Fin.ext ?_)
      match a with
      | ⟨0, _⟩ => show win0_2.index t (0 : Fin 2) * 128 + 1 * (0 + 1 * p.val) = win0_5.index t (0 : Fin 2) * 512 + 1 * (256 + 1 * p.val); omega
      | ⟨1, _⟩ => show win0_2.index t (1 : Fin 2) * 4096 + 1 * (0 + 1 * k.val) = k.val; omega
    · show V m c main_v0 (((cfg0.win 4).blk t).view.emb (rIn.emb (ix2 n k))) = V m c main_v0 _
      refine congrArg _ (funext fun a => Fin.ext ?_)
      match a with
      | ⟨0, _⟩ => show win0_4.index t (0 : Fin 2) * 128 + 1 * (0 + 1 * n.val) = win0_5.index t (1 : Fin 2) * 128 + 1 * (0 + 1 * n.val); omega
      | ⟨1, _⟩ => show win0_4.index t (1 : Fin 2) * 4096 + 1 * (0 + 1 * k.val) = k.val; omega
  · obtain ⟨p, n, rfl⟩ : ∃ (p : Fin 128) (n : Fin 128), x = ix2 p n := ⟨x 0, x 1, eq_ix2 x⟩
    refine (pay3_apply _ _ p n).trans ?_
    unfold logits
    refine Finset.sum_congr rfl fun k _ => ?_
    refine congrArg₂ (· * ·) ?_ ?_
    · show V m c main_arg0 (((cfg0.win 1).blk t).view.emb (rIn.emb (ix2 p k))) = V m c main_arg0 _
      refine congrArg _ (funext fun a => Fin.ext ?_)
      match a with
      | ⟨0, _⟩ => show win0_1.index t (0 : Fin 2) * 128 + 1 * (0 + 1 * p.val) = win0_5.index t (0 : Fin 2) * 512 + 1 * (128 + 1 * p.val); omega
      | ⟨1, _⟩ => show win0_1.index t (1 : Fin 2) * 4096 + 1 * (0 + 1 * k.val) = k.val; omega
    · show V m c main_v0 (((cfg0.win 4).blk t).view.emb (rIn.emb (ix2 n k))) = V m c main_v0 _
      refine congrArg _ (funext fun a => Fin.ext ?_)
      match a with
      | ⟨0, _⟩ => show win0_4.index t (0 : Fin 2) * 128 + 1 * (0 + 1 * n.val) = win0_5.index t (1 : Fin 2) * 128 + 1 * (0 + 1 * n.val); omega
      | ⟨1, _⟩ => show win0_4.index t (1 : Fin 2) * 4096 + 1 * (0 + 1 * k.val) = k.val; omega
  · obtain ⟨p, n, rfl⟩ : ∃ (p : Fin 128) (n : Fin 128), x = ix2 p n := ⟨x 0, x 1, eq_ix2 x⟩
    refine (pay2_apply _ _ p n).trans ?_
    unfold logits
    refine Finset.sum_congr rfl fun k _ => ?_
    refine congrArg₂ (· * ·) ?_ ?_
    · show V m c main_arg0 (((cfg0.win 0).blk t).view.emb (rIn.emb (ix2 p k))) = V m c main_arg0 _
      refine congrArg _ (funext fun a => Fin.ext ?_)
      match a with
      | ⟨0, _⟩ => show win0_0.index t (0 : Fin 2) * 128 + 1 * (0 + 1 * p.val) = win0_5.index t (0 : Fin 2) * 512 + 1 * (0 + 1 * p.val); omega
      | ⟨1, _⟩ => show win0_0.index t (1 : Fin 2) * 4096 + 1 * (0 + 1 * k.val) = k.val; omega
    · show V m c main_v0 (((cfg0.win 4).blk t).view.emb (rIn.emb (ix2 n k))) = V m c main_v0 _
      refine congrArg _ (funext fun a => Fin.ext ?_)
      match a with
      | ⟨0, _⟩ => show win0_4.index t (0 : Fin 2) * 128 + 1 * (0 + 1 * n.val) = win0_5.index t (1 : Fin 2) * 128 + 1 * (0 + 1 * n.val); omega
      | ⟨1, _⟩ => show win0_4.index t (1 : Fin 2) * 4096 + 1 * (0 + 1 * k.val) = k.val; omega

/-- An index of the result array is in point `t`'s block iff each coordinate is in the block's range on its axis. -/
theorem mem_blk (t : Fin cfg0.N) (i : S16384x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v1).slice (win0_5.rect t)).set ↔ _
  rw [View.set_slice_whole, Rect.mem_set_unit]
  exact Iff.rfl

/-- The 32 blocks tile the result array: row `i` lies in the block of point `i / 512`. -/
theorem cover (i : S16384x128.Idx) : ∃ t : Fin cfg0.N, (cfg0.win 5).flush t = true ∧ i ∈ ((cfg0.win 5).blk t).view.set := by
  have hi0 : (i 0).val < 16384 := (i 0).isLt
  have hi1 : (i 1).val < 128 := (i 1).isLt
  have hN : grid0.N = 32 := N_0
  have ht : (i 0).val / 512 < cfg0.N := by show _ < grid0.N; rw [hN]; omega
  obtain ⟨-, -, -, -, -, -, -, -, -, -, a5, a5'⟩ := idx_facts ⟨(i 0).val / 512, ht⟩
  refine ⟨⟨(i 0).val / 512, ht⟩, flush0_5 _, ?_⟩
  rw [mem_blk]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    have e : win0_5.index ⟨(i 0).val / 512, ht⟩ (0 : Fin 2) = (i 0).val / 512 := a5
    omega
  | ⟨1, _⟩ =>
    show win0_5.index ⟨(i 0).val / 512, ht⟩ (1 : Fin 2) * 128 ≤ (i 1).val ∧ (i 1).val < win0_5.index ⟨(i 0).val / 512, ht⟩ (1 : Fin 2) * 128 + 128
    omega

/-- The result array after the run is `logits` of the two argument arrays as launched. -/
theorem final (c : Dev nD) :
    (dats m 0 c).arrAt 5 cfg0.N = logits (m ((c : Thread nD τ).loc main_arg0)) (m ((c : Thread nD τ).loc main_arg1)) := by
  rw [(dats m 0 c).arrAt_eq_of_cover 5 (logits (V m c main_arg0) (V m c main_v0)) (fun t _ => flushed_eq m c t) cover,
    V_main_arg0, V_main_v0]

/-- The run, read: the result at `logits` of the arguments, the arguments unchanged. -/
theorem run : θ_run defs (onTc (τ := τ) (main (F := Ideal))) ⟨m, fun _ => 0, ρ⟩ fun r => ∀ c : Dev nD,
      r.2.mem ((c : Thread nD τ).loc main_v1) = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.KValue

end
-- ==== Proof.lean ====
/-
  The router logits kernel against its reference, `hidden_states · Wᵀ`.

  The kernel walks the 16384 rows in 32 grid points of 512 rows; at each point four windows on the ONE array of hidden
  states stage the four 128-row blocks of the point, a fifth window holds the weights (converted once by the host),
  and the body stores the four 128 × 128 products into the four quarters of the output block. The reference transposes
  the weights on the host and contracts.

  On the extended reals a change of float format is the identity and both matrix products are plain sums, so both
  programs compute, at (i, n), the one sum Σ_k hidden(i, k) · weights(n, k), with the factors in the same order: no
  algebraic law is needed, and the precondition is never opened.

  The three frames: the two kernel programs run to the end with the argument arrays unchanged (the array of hidden
  states, read by four windows, is held by each at a quarter share; the weights bypass the region); the reference is a
  straight line of two host operations. The idealization rewrote nothing, so it preserves trivially.
-/
import proofs.«171521_g59691455480109_cont_9to1_m_17_11_alg».proof.Defs
import proofs.«171521_g59691455480109_cont_9to1_m_17_11_alg».proof.Proof.Gen.Kernel
import proofs.«171521_g59691455480109_cont_9to1_m_17_11_alg».proof.Proof.Gen.KernelIdeal
import proofs.«171521_g59691455480109_cont_9to1_m_17_11_alg».proof.Proof.Gen.ReferenceIdeal
import proofs.«171521_g59691455480109_cont_9to1_m_17_11_alg».proof.Proof.Gen.Pre_finite_inputs
import proofs.«171521_g59691455480109_cont_9to1_m_17_11_alg».proof.Proof.Gen.ReferenceIdeal.Run
import proofs.«171521_g59691455480109_cont_9to1_m_17_11_alg».proof.Proof.Gen.ReferenceIdeal.Read
import proofs.«171521_g59691455480109_cont_9to1_m_17_11_alg».proof.Proof.RunBits
import proofs.«171521_g59691455480109_cont_9to1_m_17_11_alg».proof.Proof.RunIdeal
import proofs.«171521_g59691455480109_cont_9to1_m_17_11_alg».proof.Proof.RefValue
import proofs.«171521_g59691455480109_cont_9to1_m_17_11_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frm.frame m ρ

theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at `logits` of the argument arrays, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
